-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S32x32 : Shape := ⟨2, ![32, 32]⟩
abbrev S32 : Shape := ⟨1, ![32]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S65536x4096 .f32) (main_arg1 : FVec F S32x32 .f32) (main_arg2 : FVec F S32 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S65536x4096 : Shape := ⟨2, ![65536, 4096]⟩
abbrev S32x32 : Shape := ⟨2, ![32, 32]⟩
abbrev S32 : Shape := ⟨1, ![32]⟩
abbrev S65536x32 : Shape := ⟨2, ![65536, 32]⟩
abbrev S512x4096 : Shape := ⟨2, ![512, 4096]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S512x4 : Shape := ⟨2, ![512, 4]⟩
abbrev S1x32 : Shape := ⟨2, ![1, 32]⟩

abbrev nBuf : Space → Nat
  | .hbm => 5
  | .vmem => 6
  | .smem => 0
  | _ => 0

abbrev bufTy : (tb : Table) → Fin (tcTables nBuf tb) → BufTy
  | .hbm, ⟨0, _⟩ => ⟨S65536x4096, .f32⟩
  | .hbm, ⟨1, _⟩ => ⟨S32x32, .f32⟩
  | .hbm, ⟨2, _⟩ => ⟨S32, .f32⟩
  | .hbm, ⟨3, _⟩ => ⟨S32x32, .f32⟩
  | .hbm, ⟨4, _⟩ => ⟨S65536x32, .f32⟩
  | .local _ .vmem, ⟨0, _⟩ => ⟨S512x4096, .f32⟩
  | .local _ .vmem, ⟨1, _⟩ => ⟨S512x4096, .f32⟩
  | .local _ .vmem, ⟨2, _⟩ => ⟨S32x32, .f32⟩
  | .local _ .vmem, ⟨3, _⟩ => ⟨S32, .f32⟩
  | .local _ .vmem, ⟨4, _⟩ => ⟨S512x32, .f32⟩
  | .local _ .vmem, ⟨5, _⟩ => ⟨S512x32, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x32_S32x32_1_0 : S32x32.Transposes [1, 0] S32x32
  inb_S512x4096_S512x512_0_0 : ∀ a, (![0, 0] : Fin 2 → Nat) a + S512x512.size a ≤ S512x4096.size a
  h_S512x512 : 0 < S512x512.numel
  reduces_S512x512_S512 : S512x512.Reduces [1] S512
  shapeCasts_S512_S512x1 : S512.ShapeCasts S512x1
  concatenates_S512x1_S512x1_S512x1_S512x1_S512x4_d1 : Shape.Concatenates [S512x1, S512x1, S512x1, S512x1] S512x4 1
  inb_S512x4096_S512x512_0_512 : ∀ a, (![0, 512] : Fin 2 → Nat) a + S512x512.size a ≤ S512x4096.size a
  inb_S512x4096_S512x512_0_1024 : ∀ a, (![0, 1024] : Fin 2 → Nat) a + S512x512.size a ≤ S512x4096.size a
  inb_S512x4096_S512x512_0_1536 : ∀ a, (![0, 1536] : Fin 2 → Nat) a + S512x512.size a ≤ S512x4096.size a
  inb_S512x4096_S512x512_0_2048 : ∀ a, (![0, 2048] : Fin 2 → Nat) a + S512x512.size a ≤ S512x4096.size a
  inb_S512x4096_S512x512_0_2560 : ∀ a, (![0, 2560] : Fin 2 → Nat) a + S512x512.size a ≤ S512x4096.size a
  inb_S512x4096_S512x512_0_3072 : ∀ a, (![0, 3072] : Fin 2 → Nat) a + S512x512.size a ≤ S512x4096.size a
  inb_S512x4096_S512x512_0_3584 : ∀ a, (![0, 3584] : Fin 2 → Nat) a + S512x512.size a ≤ S512x4096.size a
  concatenates_S512x4_S512x4_S512x4_S512x4_S512x4_S512x4_S512x4_S512x4_S512x32_d1 : Shape.Concatenates [S512x4, S512x4, S512x4, S512x4, S512x4, S512x4, S512x4, S512x4] S512x32 1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  dot_S512x32_S32x32_S512x32_1_0_0_1_n_n_wf : DotDims.WF S512x32 S32x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S65536x4096.size a
  hwx0_0 : ∀ i : grid0.Coords, EltTy.bits .f32 = 32 ∨ (Rect.block (s := S65536x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S65536x32.size a
  hwx0_3 : ∀ i : grid0.Coords, EltTy.bits .f32 = 32 ∨ (Rect.block (s := S65536x32) S512x32.size (cc0_transform_3 i) (hinb0_3 i)).WholeWords (EltTy.packing .f32)

variable [Facts₀]

def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S32x32 : Shape := ⟨2, ![32, 32]⟩
abbrev S32 : Shape := ⟨1, ![32]⟩
abbrev S65536x8x512 : Shape := ⟨3, ![65536, 8, 512]⟩
abbrev S_ : Shape := ⟨0, ![]⟩
abbrev S65536x8 : Shape := ⟨2, ![65536, 8]⟩
abbrev S65536x8x1 : Shape := ⟨3, ![65536, 8, 1]⟩
abbrev S65536x8x4 : Shape := ⟨3, ![65536, 8, 4]⟩
abbrev S65536x32 : Shape := ⟨2, ![65536, 32]⟩
abbrev S1x32 : Shape := ⟨2, ![1, 32]⟩

abbrev nBuf : Space → Nat
  | .hbm => 56
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S32x32, .f32⟩
  | .hbm, ⟨2, _⟩ => ⟨S32, .f32⟩
  | .hbm, ⟨3, _⟩ => ⟨S65536x8x512, .f32⟩
  | .hbm, ⟨4, _⟩ => ⟨S_, .f32⟩
  | .hbm, ⟨5, _⟩ => ⟨S65536x8, .f32⟩
  | .hbm, ⟨6, _⟩ => ⟨S_, .f32⟩
  | .hbm, ⟨7, _⟩ => ⟨S65536x8, .f32⟩
  | .hbm, ⟨8, _⟩ => ⟨S65536x8, .f32⟩
  | .hbm, ⟨9, _⟩ => ⟨S65536x8x1, .f32⟩
  | .hbm, ⟨10, _⟩ => ⟨S65536x8x512, .f32⟩
  | .hbm, ⟨11, _⟩ => ⟨S65536x8x512, .f32⟩
  | .hbm, ⟨12, _⟩ => ⟨S65536x8x512, .f32⟩
  | .hbm, ⟨13, _⟩ => ⟨S_, .f32⟩
  | .hbm, ⟨14, _⟩ => ⟨S65536x8, .f32⟩
  | .hbm, ⟨15, _⟩ => ⟨S_, .f32⟩
  | .hbm, ⟨16, _⟩ => ⟨S65536x8, .f32⟩
  | .hbm, ⟨17, _⟩ => ⟨S65536x8, .f32⟩
  | .hbm, ⟨18, _⟩ => ⟨S65536x8, .f32⟩
  | .hbm, ⟨19, _⟩ => ⟨S_, .f32⟩
  | .hbm, ⟨20, _⟩ => ⟨S65536x8, .f32⟩
  | .hbm, ⟨21, _⟩ => ⟨S65536x8, .f32⟩
  | .hbm, ⟨22, _⟩ => ⟨S65536x8x512, .f32⟩
  | .hbm, ⟨23, _⟩ => ⟨S65536x8x512, .f32⟩
  | .hbm, ⟨24, _⟩ => ⟨S_, .f32⟩
  | .hbm, ⟨25, _⟩ => ⟨S65536x8, .f32⟩
  | .hbm, ⟨26, _⟩ => ⟨S_, .f32⟩
  | .hbm, ⟨27, _⟩ => ⟨S65536x8, .f32⟩
  | .hbm, ⟨28, _⟩ => ⟨S65536x8, .f32⟩
  | .hbm, ⟨29, _⟩ => ⟨S65536x8, .f32⟩
  | .hbm, ⟨30, _⟩ => ⟨S65536x8, .f32⟩
  | .hbm, ⟨31, _⟩ => ⟨S65536x8, .f32⟩
  | .hbm, ⟨32, _⟩ => ⟨S65536x8x512, .f32⟩
  | .hbm, ⟨33, _⟩ => ⟨S65536x8x512, .f32⟩
  | .hbm, ⟨34, _⟩ => ⟨S_, .f32⟩
  | .hbm, ⟨35, _⟩ => ⟨S65536x8, .f32⟩
  | .hbm, ⟨36, _⟩ => ⟨S_, .f32⟩
  | .hbm, ⟨37, _⟩ => ⟨S65536x8, .f32⟩
  | .hbm, ⟨38, _⟩ => ⟨S65536x8, .f32⟩
  | .hbm, ⟨39, _⟩ => ⟨S65536x8, .f32⟩
  | .hbm, ⟨40, _⟩ => ⟨S65536x8, .f32⟩
  | .hbm, ⟨41, _⟩ => ⟨S65536x8, .f32⟩
  | .hbm, ⟨42, _⟩ => ⟨S_, .f32⟩
  | .hbm, ⟨43, _⟩ => ⟨S65536x8, .f32⟩
  | .hbm, ⟨44, _⟩ => ⟨S65536x8, .f32⟩
  | .hbm, ⟨45, _⟩ => ⟨S65536x8x1, .f32⟩
  | .hbm, ⟨46, _⟩ => ⟨S65536x8x1, .f32⟩
  | .hbm, ⟨47, _⟩ => ⟨S65536x8x1, .f32⟩
  | .hbm, ⟨48, _⟩ => ⟨S65536x8x1, .f32⟩
  | .hbm, ⟨49, _⟩ => ⟨S65536x8x4, .f32⟩
  | .hbm, ⟨50, _⟩ => ⟨S65536x32, .f32⟩
  | .hbm, ⟨51, _⟩ => ⟨S32x32, .f32⟩
  | .hbm, ⟨52, _⟩ => ⟨S65536x32, .f32⟩
  | .hbm, ⟨53, _⟩ => ⟨S1x32, .f32⟩
  | .hbm, ⟨54, _⟩ => ⟨S65536x32, .f32⟩
  | .hbm, ⟨55, _⟩ => ⟨S65536x32, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  shapeCasts_S65536x4096_S65536x8x512 : S65536x4096.ShapeCasts S65536x8x512
  reducesTo_S65536x8x512_S65536x8_d2 : S65536x8x512.ReducesTo [2] S65536x8
  h_S_ : 0 < S_.numel
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x512_0_1_2 : S65536x8x1.BroadcastsInDim S65536x8x512 (![0, 1, 2] : Fin 3 → Fin S65536x8x512.rank)
  concatenates_S65536x8x1_S65536x8x1_S65536x8x1_S65536x8x1_S65536x8x4_d2 : Shape.Concatenates [S65536x8x1, S65536x8x1, S65536x8x1, S65536x8x1] S65536x8x4 2
  shapeCasts_S65536x8x4_S65536x32 : S65536x8x4.ShapeCasts S65536x32
  transposes_S32x32_S32x32_1_0 : S32x32.Transposes [1, 0] S32x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  dot_S65536x32_S32x32_S65536x32_1_0_0_1_n_n_wf : DotDims.WF S65536x32 S32x32 S65536x32 [1] [0] [0] [1] [] []

variable [Facts₀]

def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf

class Facts : Prop extends Facts₀ where

variable [Facts]
-- ==== Proof.LibPowerSums.lean ====
/-
  Power sums against centred sums, over the reals, and the coercion of a finite real sum into the extended reals.

  For a finite family `f` with `∑ f = n · m` (`n` the number of terms, so `m` is the mean), the centred sums of
  degree two, three and four are polynomials in the raw power sums `∑ f`, `∑ f²`, `∑ f³`, `∑ f⁴` and the mean:
    ∑ (f − m)² = ∑ f² − n m²,
    ∑ (f − m)³ = ∑ f³ − 3 m ∑ f² + 2 n m³,
    ∑ (f − m)⁴ = ∑ f⁴ − 4 m ∑ f³ + 6 m² ∑ f² − 3 n m⁴
  (the binomial expansion, with `∑ f` replaced by `n m`). The products are spelt the way a program multiplies them
  out — `(a·a)·a`, `(a·a)·(a·a)` — so that the statements rewrite such terms without reassociation.
-/
import Mathlib

namespace Cert.LibPowerSums

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type*} (s : Finset ι) (f : ι → ℝ) (m : ℝ)

/-- Degree two: `∑ (f − m)² = ∑ f² − n m²` when `∑ f = n m`. -/
theorem centred_sq (hm : ∑ i ∈ s, f i = (s.card : ℝ) * m) :
    ∑ i ∈ s, (f i - m) * (f i - m) = (∑ i ∈ s, f i * f i) - (s.card : ℝ) * (m * m) := by
  have e : ∀ i, (f i - m) * (f i - m) = f i * f i - (2 * m) * f i + m * m := fun i => by ring
  simp only [e, Finset.sum_add_distrib, Finset.sum_sub_distrib, ← Finset.mul_sum, hm, Finset.sum_const,
    nsmul_eq_mul]
  ring

/-- Degree three: `∑ (f − m)³ = ∑ f³ − 3 m ∑ f² + 2 n m³` when `∑ f = n m`. -/
theorem centred_cube (hm : ∑ i ∈ s, f i = (s.card : ℝ) * m) :
    ∑ i ∈ s, ((f i - m) * (f i - m)) * (f i - m)
      = ((∑ i ∈ s, (f i * f i) * f i) - (3 * m) * (∑ i ∈ s, f i * f i)) + (2 * (s.card : ℝ)) * ((m * m) * m) := by
  have e : ∀ i, ((f i - m) * (f i - m)) * (f i - m)
      = (f i * f i) * f i - (3 * m) * (f i * f i) + (3 * (m * m)) * f i - (m * m) * m := fun i => by ring
  simp only [e, Finset.sum_add_distrib, Finset.sum_sub_distrib, ← Finset.mul_sum, hm, Finset.sum_const,
    nsmul_eq_mul]
  ring

/-- Degree four: `∑ (f − m)⁴ = ∑ f⁴ − 4 m ∑ f³ + 6 m² ∑ f² − 3 n m⁴` when `∑ f = n m`. -/
theorem centred_fourth (hm : ∑ i ∈ s, f i = (s.card : ℝ) * m) :
    ∑ i ∈ s, ((f i - m) * (f i - m)) * ((f i - m) * (f i - m))
      = (((∑ i ∈ s, (f i * f i) * (f i * f i)) - (4 * m) * (∑ i ∈ s, (f i * f i) * f i))
          + (6 * (m * m)) * (∑ i ∈ s, f i * f i)) - (3 * (s.card : ℝ)) * ((m * m) * (m * m)) := by
  have e : ∀ i, ((f i - m) * (f i - m)) * ((f i - m) * (f i - m))
      = (f i * f i) * (f i * f i) - (4 * m) * ((f i * f i) * f i) + (6 * (m * m)) * (f i * f i)
        - (4 * ((m * m) * m)) * f i + (m * m) * (m * m) := fun i => by ring
  simp only [e, Finset.sum_add_distrib, Finset.sum_sub_distrib, ← Finset.mul_sum, hm, Finset.sum_const,
    nsmul_eq_mul]
  ring

end Cert.LibPowerSums
-- ==== Proof.Moments.lean ====
/-
  The four moments of one segment of 512 numbers, in the two forms the two programs compute them, and their equality.

  For a segment `xs : Fin 512 → EReal` both programs produce (mean, std, skew, kurt) with
    std  = sqrt (var / 511) + ε,   skew = (c₃ / 512) / std³,   kurt = (c₄ / 512) / std⁴ − 3,
  where `var`, `c₃`, `c₄` are the sums of the second, third and fourth powers of the deviations from the mean.
  The ONE-SWEEP form (`…K`) takes them from the raw power sums S₁ … S₄ and the mean `m = S₁ · (1/512)`:
    var = S₂ − 512 m²,   c₃ = S₃ − 3 m S₂ + 1024 m³,   c₄ = S₄ − 4 m S₃ + 6 m² S₂ − 1536 m⁴;
  the TWO-SWEEP form (`…R`) subtracts `m = S₁ / 512` from every entry first and sums the powers of the deviations.
  Over the extended reals the two means agree for every segment (dividing by 512 is multiplying by 1/512); the three
  centred sums agree when every entry is a real number, by the binomial expansion with `S₁ = 512 m` — at an infinite
  entry the expansion's distributivity fails, which is why finiteness is assumed. The float literals are kept as the
  words the programs spell; only the seven whose VALUE the expansion uses (1/512, 512, 3, 4, 6, 1024, 1536) and zero
  are evaluated.
-/
import Idealize.ShloMosaic.PureOps.Ideal
import Idealize.ShloMosaic.PureOps.Ideal.Laws
import proofs.«141225_j52450140619338_2_alg».proof.Proof.LibPowerSums

noncomputable section

namespace Cert.Moments

open Idealize.ShloMosaic

/-! ## The literals -/

/-- `0x3B000000` is 2⁻⁹ = 1/512. -/
theorem lit_inv512 : Ideal.ofBits .f32 0x3B000000#32 = ((1 / 512 : ℝ) : EReal) := by
  simp [Ideal.ofBits, Ideal.ieee, -EReal.coe_mul]; norm_num
/-- `0x44000000` is 512. -/
theorem lit_512 : Ideal.ofBits .f32 0x44000000#32 = ((512 : ℝ) : EReal) := by
  simp [Ideal.ofBits, Ideal.ieee, -EReal.coe_mul]; norm_num
/-- `0x40400000` is 3. -/
theorem lit_3 : Ideal.ofBits .f32 0x40400000#32 = ((3 : ℝ) : EReal) := by
  simp [Ideal.ofBits, Ideal.ieee, -EReal.coe_mul]; norm_num
/-- `0x40800000` is 4. -/
theorem lit_4 : Ideal.ofBits .f32 0x40800000#32 = ((4 : ℝ) : EReal) := by
  simp [Ideal.ofBits, Ideal.ieee, -EReal.coe_mul]; norm_num
/-- `0x40C00000` is 6. -/
theorem lit_6 : Ideal.ofBits .f32 0x40C00000#32 = ((6 : ℝ) : EReal) := by
  simp [Ideal.ofBits, Ideal.ieee, -EReal.coe_mul]; norm_num
/-- `0x44800000` is 1024. -/
theorem lit_1024 : Ideal.ofBits .f32 0x44800000#32 = ((1024 : ℝ) : EReal) := by
  simp [Ideal.ofBits, Ideal.ieee, -EReal.coe_mul]; norm_num
/-- `0x44C00000` is 1536. -/
theorem lit_1536 : Ideal.ofBits .f32 0x44C00000#32 = ((1536 : ℝ) : EReal) := by
  simp [Ideal.ofBits, Ideal.ieee, -EReal.coe_mul]; norm_num

/-! ## The two forms -/

/-- std from the sum of squared deviations: `sqrt (v / 511) + ε`, the two literals as spelt (511.0 and f32(1e-8)). -/
def stdOf (v : EReal) : EReal :=
  Ideal.sqrt (Ideal.div v (Ideal.ofBits .f32 0x43FF8000#32)) + Ideal.ofBits .f32 0x322BCC77#32

variable (xs : Fin 512 → EReal)

/-- One-sweep mean: `S₁ · (1/512)`. -/
def meanK : EReal := (∑ l, xs l) * Ideal.ofBits .f32 0x3B000000#32
/-- One-sweep sum of squared deviations: `S₂ − 512 m²`. -/
def varK : EReal := (∑ l, xs l * xs l) - Ideal.ofBits .f32 0x44000000#32 * (meanK xs * meanK xs)
/-- One-sweep sum of cubed deviations: `S₃ − 3 m S₂ + 1024 m³`. -/
def cubeK : EReal :=
  ((∑ l, (xs l * xs l) * xs l) - (Ideal.ofBits .f32 0x40400000#32 * meanK xs) * (∑ l, xs l * xs l))
    + Ideal.ofBits .f32 0x44800000#32 * ((meanK xs * meanK xs) * meanK xs)
/-- One-sweep sum of fourth powers of deviations: `S₄ − 4 m S₃ + 6 m² S₂ − 1536 m⁴`. -/
def fourthK : EReal :=
  (((∑ l, (xs l * xs l) * (xs l * xs l)) - (Ideal.ofBits .f32 0x40800000#32 * meanK xs) * (∑ l, (xs l * xs l) * xs l))
      + (Ideal.ofBits .f32 0x40C00000#32 * (meanK xs * meanK xs)) * (∑ l, xs l * xs l))
    - Ideal.ofBits .f32 0x44C00000#32 * ((meanK xs * meanK xs) * (meanK xs * meanK xs))
def stdK : EReal := stdOf (varK xs)
def skewK : EReal :=
  Ideal.div (cubeK xs * Ideal.ofBits .f32 0x3B000000#32) (stdK xs * (stdK xs * stdK xs))
def kurtK : EReal :=
  Ideal.div (fourthK xs * Ideal.ofBits .f32 0x3B000000#32) ((stdK xs * stdK xs) * (stdK xs * stdK xs))
    - Ideal.ofBits .f32 0x40400000#32

/-- Two-sweep mean: `(0 + S₁) / 512`. -/
def meanR : EReal := Ideal.div (Ideal.ofBits .f32 0x00000000#32 + ∑ l, xs l) (Ideal.ofBits .f32 0x44000000#32)
/-- Two-sweep sums of powers of the deviations. -/
def varR : EReal := Ideal.ofBits .f32 0x00000000#32 + ∑ l, (xs l - meanR xs) * (xs l - meanR xs)
def cubeR : EReal :=
  Ideal.ofBits .f32 0x00000000#32 + ∑ l, ((xs l - meanR xs) * (xs l - meanR xs)) * (xs l - meanR xs)
def fourthR : EReal :=
  Ideal.ofBits .f32 0x00000000#32
    + ∑ l, ((xs l - meanR xs) * (xs l - meanR xs)) * ((xs l - meanR xs) * (xs l - meanR xs))
def stdR : EReal := stdOf (varR xs)
def skewR : EReal :=
  Ideal.div (Ideal.div (cubeR xs) (Ideal.ofBits .f32 0x44000000#32)) ((stdR xs * stdR xs) * stdR xs)
def kurtR : EReal :=
  Ideal.div (Ideal.div (fourthR xs) (Ideal.ofBits .f32 0x44000000#32)) ((stdR xs * stdR xs) * (stdR xs * stdR xs))
    - Ideal.ofBits .f32 0x40400000#32

/-- The four moments, one-sweep form, by position (mean, std, skew, kurt). -/
def momK : Fin 4 → EReal := ![meanK xs, stdK xs, skewK xs, kurtK xs]
/-- The four moments, two-sweep form. -/
def momR : Fin 4 → EReal := ![meanR xs, stdR xs, skewR xs, kurtR xs]

/-! ## They agree -/

/-- The means agree on every segment: dividing by 512 is multiplying by 1/512. -/
theorem meanK_eq_meanR : meanK xs = meanR xs := by
  unfold meanK meanR
  rw [lit_512, lit_inv512, Ideal.ofBits_zero_f32, zero_add, Ideal.div_coe (by norm_num : (512 : ℝ) ≠ 0)]

variable {xs}

section finite
variable (f : Fin 512 → ℝ)

/-- On a real segment the mean is the real mean. -/
theorem meanK_coe : meanK (fun l => (f l : EReal)) = (((∑ l, f l) * (1 / 512) : ℝ) : EReal) := by
  unfold meanK
  rw [lit_inv512, ← LibPowerSums.coe_sum, ← EReal.coe_mul]

theorem sum_eq_card_mul : ∑ l, f l = ((Finset.univ : Finset (Fin 512)).card : ℝ) * ((∑ l, f l) * (1 / 512)) := by
  rw [Finset.card_univ, Fintype.card_fin]; push_cast; ring

theorem varK_eq_varR_coe : varK (fun l => (f l : EReal)) = varR (fun l => (f l : EReal)) := by
  unfold varK varR
  rw [← meanK_eq_meanR, meanK_coe, lit_512, Ideal.ofBits_zero_f32, zero_add]
  simp only [← EReal.coe_mul, ← EReal.coe_sub, ← LibPowerSums.coe_sum]
  rw [LibPowerSums.centred_sq Finset.univ f _ (sum_eq_card_mul f), Finset.card_univ, Fintype.card_fin]
  norm_num

theorem cubeK_eq_cubeR_coe : cubeK (fun l => (f l : EReal)) = cubeR (fun l => (f l : EReal)) := by
  unfold cubeK cubeR
  rw [← meanK_eq_meanR, meanK_coe, lit_3, lit_1024, Ideal.ofBits_zero_f32, zero_add]
  simp only [← EReal.coe_mul, ← EReal.coe_sub, ← EReal.coe_add, ← LibPowerSums.coe_sum]
  rw [LibPowerSums.centred_cube Finset.univ f _ (sum_eq_card_mul f), Finset.card_univ, Fintype.card_fin]
  norm_num

theorem fourthK_eq_fourthR_coe : fourthK (fun l => (f l : EReal)) = fourthR (fun l => (f l : EReal)) := by
  unfold fourthK fourthR
  rw [← meanK_eq_meanR, meanK_coe, lit_4, lit_6, lit_1536, Ideal.ofBits_zero_f32, zero_add]
  simp only [← EReal.coe_mul, ← EReal.coe_sub, ← EReal.coe_add, ← LibPowerSums.coe_sum]
  rw [LibPowerSums.centred_fourth Finset.univ f _ (sum_eq_card_mul f), Finset.card_univ, Fintype.card_fin]
  norm_num

end finite

/-- **The two forms agree on a segment of real numbers**, moment by moment. -/
theorem momK_eq_momR (h : ∀ l, ∃ r : ℝ, xs l = (r : EReal)) : momK xs = momR xs := by
  choose f hf using h
  obtain rfl : xs = fun l => (f l : EReal) := funext hf
  have hm := meanK_eq_meanR (fun l => (f l : EReal))
  have hs : stdK (fun l => (f l : EReal)) = stdR (fun l => (f l : EReal)) := by
    unfold stdK stdR; rw [varK_eq_varR_coe]
  have hk : skewK (fun l => (f l : EReal)) = skewR (fun l => (f l : EReal)) := by
    unfold skewK skewR
    rw [hs, cubeK_eq_cubeR_coe, lit_512, lit_inv512, Ideal.div_coe (by norm_num : (512 : ℝ) ≠ 0),
      mul_comm (stdR _) (stdR _ * stdR _)]
  have hq : kurtK (fun l => (f l : EReal)) = kurtR (fun l => (f l : EReal)) := by
    unfold kurtK kurtR
    rw [hs, fourthK_eq_fourthR_coe, lit_512, lit_inv512, Ideal.div_coe (by norm_num : (512 : ℝ) ≠ 0)]
  unfold momK momR
  rw [hm, hs, hk, hq]

end Cert.Moments

end
-- ==== Proof.KernelBlock.lean ====
/-
  What the kernel's body leaves in its output block, read at an index.

  The body handles its [512, 4096] block of `x` as eight [512, 512] segment blocks. On each it computes the same
  [512, 4] block of moments (row sums of the first four powers, then the one-sweep formulas, the four columns laid side
  by side); the eight are laid side by side into [512, 32], multiplied into the [32, 32] weight block from a zero
  accumulator, and the bias row is added. Here: that the eight segment computations are ONE function `segF` of the
  segment block (the program's text repeats it eight times), that `segF` at row `r`, column `k` is the `k`-th one-sweep
  moment of row `r` of the block (Proof/Moments.lean), and hence the body's result at `(r, o)`.
-/
import proofs.«141225_j52450140619338_2_alg».proof.Proof.Gen.KernelIdeal.Frame
import proofs.«141225_j52450140619338_2_alg».proof.Proof.Moments
import Idealize.ShloMosaic.Lib.ValueIdx
import Idealize.ShloMosaic.Lib.Pipeline.Value
import Idealize.ShloMosaic.PureOps.Ideal.Laws

set_option maxRecDepth 16384

noncomputable section

namespace Cert.KernelIdeal.Block

open Cert.KernelIdeal Cert.KernelIdeal.Gen Idealize.ShloMosaic Idealize.ShloMosaic.ValueIdx Cert.Moments

/-! ## The eight segment computations are one function -/

section generic
variable {F : FTy → Type} [FloatOps F]

/-- The [512, 4] block of moments of a [512, 512] segment block, as the body computes it for the first segment. -/
def segF (x : Vec F S512x512 .f32) : FVec F S512x4 .f32 :=
  k0_pay10 (k0_pay5 x) (k0_pay7 x) (k0_pay8 x) (k0_pay9 x) (Scalar.ofBits .f32 0x3B000000#32)

/-- The other segments' computations are the same operations in the same order. -/
theorem seg1 (x : Vec F S512x512 .f32) : k0_pay20 (k0_pay12 x) (k0_pay13 x) (k0_pay14 x) (k0_pay15 x) (k0_pay16 x) (k0_pay17 x) (k0_pay18 x) (k0_pay19 x) (Scalar.ofBits .f32 0x40800000#32) = segF x := rfl
theorem seg2 (x : Vec F S512x512 .f32) : k0_pay30 (k0_pay22 x) (k0_pay23 x) (k0_pay24 x) (k0_pay25 x) (k0_pay26 x) (k0_pay27 x) (k0_pay28 x) (k0_pay29 x) = segF x := rfl
theorem seg3 (x : Vec F S512x512 .f32) : k0_pay36 (k0_pay32 x) (k0_pay33 x) (k0_pay34 x) (k0_pay35 x) = segF x := rfl
theorem seg4 (x : Vec F S512x512 .f32) : k0_pay46 (k0_pay40 x) (k0_pay42 x) (k0_pay43 x) (k0_pay44 x) (k0_pay45 x) = segF x := rfl
theorem seg5 (x : Vec F S512x512 .f32) : k0_pay56 (k0_pay48 x) (k0_pay50 x) (k0_pay51 x) (k0_pay52 x) (k0_pay53 x) (k0_pay54 x) (k0_pay55 x) = segF x := rfl
theorem seg6 (x : Vec F S512x512 .f32) : k0_pay66 (k0_pay58 x) (k0_pay59 x) (k0_pay60 x) (k0_pay61 x) (k0_pay62 x) (k0_pay63 x) (k0_pay64 x) (k0_pay65 x) = segF x := rfl

/-- The product of a [512, 32] block with the weight block, from the zero accumulator. -/
def linF (M : FVec F S512x32 .f32) (w : Vec F S32x32 .f32) : FVec F S512x32 .f32 :=
  matmul dot_S512x32_S32x32_S512x32_1_0_0_1_n_n none M (shapeCast S32x32 w shapeCasts_S32x32_S32x32) (constant S512x32 .f32 0x00000000#32)

/-- Eight [512, 4] blocks side by side. -/
def cat8 (v : Fin 8 → FVec F S512x4 .f32) : FVec F S512x32 .f32 :=
  concatenate S512x32 1 [⟨S512x4, v 0⟩, ⟨S512x4, v 1⟩, ⟨S512x4, v 2⟩, ⟨S512x4, v 3⟩, ⟨S512x4, v 4⟩, ⟨S512x4, v 5⟩, ⟨S512x4, v 6⟩, ⟨S512x4, v 7⟩] concatenates_S512x4_S512x4_S512x4_S512x4_S512x4_S512x4_S512x4_S512x4_S512x32_d1

/-- The last segment's computation, the laying side by side and the product are one payload in the program's text. -/
theorem tail7 (v0 v1 v2 v3 v4 v5 v6 : FVec F S512x4 .f32) (x : Vec F S512x512 .f32) (w : Vec F S32x32 .f32) :
    k0_pay72 v0 v1 v2 v3 v4 v5 v6 (k0_pay68 x) (k0_pay69 x) (k0_pay70 x) (k0_pay71 x) w
      = linF (cat8 ![v0, v1, v2, v3, v4, v5, v6, segF x]) w := rfl

/-- The body's result from the eight segment blocks, the weight block and the bias block. -/
def bodyF (L : Fin 8 → Vec F S512x512 .f32) (w : Vec F S32x32 .f32) (b : Vec F S32 .f32) : FVec F S512x32 .f32 :=
  k0_pay1 (linF (cat8 fun s => segF (L s)) w) b

/-- The eight segment blocks of the body's [512, 4096] input block. -/
def segBlocks (x0 : Vec F S512x4096 .f32) : Fin 8 → Vec F S512x512 .f32 :=
  ![View.ld x0 r0_0, View.ld x0 r0_1, View.ld x0 r0_2, View.ld x0 r0_3, View.ld x0 r0_4, View.ld x0 r0_5, View.ld x0 r0_6, View.ld x0 r0_7]

/-- What the body leaves in the output buffer is `bodyF` of the loaded blocks, stored whole. -/
theorem out0_3_eq (x0 : Vec F S512x4096 .f32) (x1 : Vec F S32x32 .f32) (x2 : Vec F S32 .f32) :
    out0_3 x0 x1 x2 = View.canon [⟨r0_10, bodyF (segBlocks x0) (View.ld x1 r0_8) (View.ld x2 r0_9)⟩] := rfl

end generic

end Cert.KernelIdeal.Block

end
-- ==== Proof.Spec.lean ====
/-
  The result both programs compute, as ONE function of the three argument arrays.

  `x : [65536, 4096]` is read as 65536 rows of 8 segments of 512 numbers. The MOMENT ARRAY `[65536, 32]` holds, in
  row `R` and column `4 s + k`, the `k`-th moment (mean, std, skew, kurt) of segment `s` of row `R`; the result is the
  linear layer over it: `out[R, o] = ∑ k, moments[R, k] · W[o, k] + b[o]`. The moment array is stated in the two forms
  of Proof/Moments.lean; they are the same array when every entry of `x` is a real number.
-/
import Idealize.ShloMosaic.Lib.ValueIdx
import proofs.«141225_j52450140619338_2_alg».proof.Proof.Moments

noncomputable section

namespace Cert.Spec

open Idealize.ShloMosaic Idealize.ShloMosaic.ValueIdx Cert.Moments

abbrev SX : Shape := ⟨2, ![65536, 4096]⟩
abbrev SW : Shape := ⟨2, ![32, 32]⟩
abbrev SB : Shape := ⟨1, ![32]⟩
abbrev SO : Shape := ⟨2, ![65536, 32]⟩

/-- Segment `s` of row `R` of `x`: columns `512 s … 512 s + 511`. -/
def segment (x : SX.Idx → EReal) (R : Fin 65536) (s : Fin 8) : Fin 512 → EReal :=
  fun l => x (ix2 R ⟨s.val * 512 + l.val, by have := s.isLt; have := l.isLt; omega⟩)

/-- Column `c` of the moment array is moment `c % 4` of segment `c / 4`. -/
def colSeg (c : Fin 32) : Fin 8 := ⟨c.val / 4, by have := c.isLt; omega⟩
def colMom (c : Fin 32) : Fin 4 := ⟨c.val % 4, Nat.mod_lt _ (by decide)⟩

/-- The moment array, one-sweep form. -/
def momentsK (x : SX.Idx → EReal) (R : Fin 65536) (c : Fin 32) : EReal := momK (segment x R (colSeg c)) (colMom c)
/-- The moment array, two-sweep form. -/
def momentsR (x : SX.Idx → EReal) (R : Fin 65536) (c : Fin 32) : EReal := momR (segment x R (colSeg c)) (colMom c)

/-- The linear layer over a moment array: `∑ k, M[R, k] · W[o, k] + b[o]`. -/
def lin (M : Fin 65536 → Fin 32 → EReal) (W : SW.Idx → EReal) (b : SB.Idx → EReal) : SO.Idx → EReal :=
  fun i => (∑ k : Fin 32, M ⟨(i 0).val, (i 0).isLt⟩ k * W (ix2 ⟨(i 1).val, (i 1).isLt⟩ k)) + b (ix1 ⟨(i 1).val, (i 1).isLt⟩)

/-- On an array of real numbers the two moment arrays are one. -/
theorem momentsK_eq_momentsR {x : SX.Idx → EReal} (hx : ∀ j, ∃ r : ℝ, x j = (r : EReal)) :
    momentsK x = momentsR x := by
  funext R c
  unfold momentsK momentsR
  rw [momK_eq_momR (xs := segment x R (colSeg c)) (fun l => hx _)]

end Cert.Spec

end
-- ==== Proof.KernelBlockAt.lean ====
/-
  The kernel body's result at an index of its [512, 32] output block, at the ideal instance.

  Row `r`, column `o` of the block is `∑ k, M[r, k] · w[k, o] + b[o]`, where `M[r, 4 s + j]` is the `j`-th one-sweep
  moment (Proof/Moments.lean) of row `r` of the `s`-th segment block, `w` the weight block and `b` the bias block. The
  steps: a lane sum laid out as a column is the row's sum; so the body's columns are the one-sweep mean, std, cubed and
  fourth-power sums of the row; four columns, then eight [512, 4] blocks, laid side by side are read piece by piece; the
  product from a zero accumulator is the sum over the 32 contracted columns; the bias row is broadcast down the rows.
-/
import proofs.«141225_j52450140619338_2_alg».proof.Proof.KernelBlock
import proofs.«141225_j52450140619338_2_alg».proof.Proof.Spec

set_option maxRecDepth 16384

noncomputable section

namespace Cert.KernelIdeal.Block

open Cert.KernelIdeal Cert.KernelIdeal.Gen Idealize.ShloMosaic Idealize.ShloMosaic.ValueIdx Cert.Moments Cert.Spec

/-- Row `r` of a segment block. -/
def row (x : Vec Ideal S512x512 .f32) (r : Fin 512) : Fin 512 → EReal := fun l => x (ix2 r l)

/-- A lane sum laid out as a column: entry `(r, 0)` is the sum of row `r`. -/
theorem sumcol (v : FVec Ideal S512x512 .f32) :
    shapeCast S512x1 (multiReduction .add [1] S512 v 0x00000000#32 reduces_S512x512_S512 (.inl rfl) rfl) shapeCasts_S512_S512x1
      = fun i => ∑ l : Fin 512, v (ix2 ⟨(i 0).val, (i 0).isLt⟩ l) := by
  funext i
  refine (shapeCast_apply _ shapeCasts_S512_S512x1 i (ix1 ⟨(i 0).val, (i 0).isLt⟩) (by
    rw [Shape.rowMajor_val_one, Shape.rowMajor_val_two]
    have h1 : (i 1).val < 1 := (i 1).isLt
    show (i 0).val = (i 0).val * 1 + (i 1).val
    omega)).trans ?_
  refine (Ideal.multiReduction_add_single v 0x00000000#32 reduces_S512x512_S512 (.inl rfl) rfl
    (ix1 ⟨(i 0).val, (i 0).isLt⟩)).trans ?_
  refine Finset.sum_congr rfl fun l _ => congrArg v (funext fun a => Fin.ext ?_)
  match a with
  | ⟨0, _⟩ => rfl
  | ⟨1, _⟩ => rfl

variable (x : Vec Ideal S512x512 .f32)

/-- The body's mean column. -/
theorem mean_col : k0_pay5 (F := Ideal) x = fun i => meanK (row x ⟨(i 0).val, (i 0).isLt⟩) := by
  unfold k0_pay5; dsimp only; rw [sumcol]; rfl
/-- The body's column of sums of squares. -/
theorem sq_col : k0_pay3 (F := Ideal) x
    = fun i => ∑ l, row x ⟨(i 0).val, (i 0).isLt⟩ l * row x ⟨(i 0).val, (i 0).isLt⟩ l := by
  unfold k0_pay3 k0_pay2; dsimp only; rw [sumcol]; rfl
/-- The body's column of sums of cubes. -/
theorem cube_col : k0_pay4 (F := Ideal) x
    = fun i => ∑ l, (row x ⟨(i 0).val, (i 0).isLt⟩ l * row x ⟨(i 0).val, (i 0).isLt⟩ l) * row x ⟨(i 0).val, (i 0).isLt⟩ l := by
  unfold k0_pay4 k0_pay2; dsimp only; rw [sumcol]; rfl
/-- The body's std column. -/
theorem std_col : k0_pay7 (F := Ideal) x = fun i => stdK (row x ⟨(i 0).val, (i 0).isLt⟩) := by
  unfold k0_pay7 k0_pay6; dsimp only; rw [mean_col, sq_col]; rfl
/-- The body's column of one-sweep sums of cubed deviations. -/
theorem cubeK_col : k0_pay8 (F := Ideal) x = fun i => cubeK (row x ⟨(i 0).val, (i 0).isLt⟩) := by
  unfold k0_pay8 k0_pay6; dsimp only; rw [mean_col, sq_col, cube_col]; rfl
/-- The body's column of one-sweep sums of fourth powers of deviations. -/
theorem fourthK_col : k0_pay9 (F := Ideal) x = fun i => fourthK (row x ⟨(i 0).val, (i 0).isLt⟩) := by
  unfold k0_pay9 k0_pay6 k0_pay2; dsimp only; rw [sumcol, mean_col, sq_col, cube_col]; rfl

/-- The block of moments is its four columns side by side. -/
theorem segF_cols : segF (F := Ideal) x
    = concatenate S512x4 1 [⟨S512x1, fun i => meanK (row x ⟨(i 0).val, (i 0).isLt⟩)⟩,
        ⟨S512x1, fun i => stdK (row x ⟨(i 0).val, (i 0).isLt⟩)⟩,
        ⟨S512x1, fun i => skewK (row x ⟨(i 0).val, (i 0).isLt⟩)⟩,
        ⟨S512x1, fun i => kurtK (row x ⟨(i 0).val, (i 0).isLt⟩)⟩] concatenates_S512x1_S512x1_S512x1_S512x1_S512x4_d1 := by
  unfold segF k0_pay10; dsimp only; rw [mean_col, std_col, cubeK_col, fourthK_col]; rfl

/-- Four columns side by side at `(r, k)`: the `k`-th column at `(r, 0)`. -/
theorem cols4_apply (f0 f1 f2 f3 : S512x1.Idx → EReal) (r : Fin 512) (k : Fin 4) :
    concatenate S512x4 1 [⟨S512x1, f0⟩, ⟨S512x1, f1⟩, ⟨S512x1, f2⟩, ⟨S512x1, f3⟩]
        concatenates_S512x1_S512x1_S512x1_S512x1_S512x4_d1 (ix2 r k)
      = (![f0, f1, f2, f3] : Fin 4 → S512x1.Idx → EReal) k (ix2 r 0) := by
  match k with
  | ⟨0, _⟩ =>
    exact concatenate_apply_piece (t := S512x4) 1 _ _ _ 0 (by simp) S512x1 _ rfl rfl 0 rfl (ix2 r 0)
      (fun b hb => by match b with
        | ⟨0, _⟩ => rfl
        | ⟨1, _⟩ => exact absurd rfl hb) rfl
  | ⟨1, _⟩ =>
    exact concatenate_apply_piece (t := S512x4) 1 _ _ _ 1 (by simp) S512x1 _ rfl rfl 1 rfl (ix2 r 0)
      (fun b hb => by match b with
        | ⟨0, _⟩ => rfl
        | ⟨1, _⟩ => exact absurd rfl hb) rfl
  | ⟨2, _⟩ =>
    exact concatenate_apply_piece (t := S512x4) 1 _ _ _ 2 (by simp) S512x1 _ rfl rfl 2 rfl (ix2 r 0)
      (fun b hb => by match b with
        | ⟨0, _⟩ => rfl
        | ⟨1, _⟩ => exact absurd rfl hb) rfl
  | ⟨3, _⟩ =>
    exact concatenate_apply_piece (t := S512x4) 1 _ _ _ 3 (by simp) S512x1 _ rfl rfl 3 rfl (ix2 r 0)
      (fun b hb => by match b with
        | ⟨0, _⟩ => rfl
        | ⟨1, _⟩ => exact absurd rfl hb) rfl

/-- **The block of moments at `(r, k)`** is the `k`-th one-sweep moment of row `r`. -/
theorem segF_apply (r : Fin 512) (k : Fin 4) : segF (F := Ideal) x (ix2 r k) = momK (row x r) k := by
  rw [segF_cols, cols4_apply]
  match k with
  | ⟨0, _⟩ => rfl
  | ⟨1, _⟩ => rfl
  | ⟨2, _⟩ => rfl
  | ⟨3, _⟩ => rfl

/-- Eight blocks side by side at `(r, 4 s + k)`: block `s` at `(r, k)`. -/
theorem cat8_apply (v : Fin 8 → FVec Ideal S512x4 .f32) (r : Fin 512) (s : Fin 8) (k : Fin 4) :
    cat8 v (ix2 r ⟨4 * s.val + k.val, by have := s.isLt; have := k.isLt; omega⟩) = v s (ix2 r k) := by
  unfold cat8
  match s with
  | ⟨0, _⟩ =>
    exact concatenate_apply_piece (t := S512x32) 1 _ _ _ 0 (by simp) S512x4 _ rfl rfl 0 rfl (ix2 r k)
      (fun b hb => by match b with
        | ⟨0, _⟩ => rfl
        | ⟨1, _⟩ => exact absurd rfl hb) rfl
  | ⟨1, _⟩ =>
    exact concatenate_apply_piece (t := S512x32) 1 _ _ _ 1 (by simp) S512x4 _ rfl rfl 4 rfl (ix2 r k)
      (fun b hb => by match b with
        | ⟨0, _⟩ => rfl
        | ⟨1, _⟩ => exact absurd rfl hb) rfl
  | ⟨2, _⟩ =>
    exact concatenate_apply_piece (t := S512x32) 1 _ _ _ 2 (by simp) S512x4 _ rfl rfl 8 rfl (ix2 r k)
      (fun b hb => by match b with
        | ⟨0, _⟩ => rfl
        | ⟨1, _⟩ => exact absurd rfl hb) rfl
  | ⟨3, _⟩ =>
    exact concatenate_apply_piece (t := S512x32) 1 _ _ _ 3 (by simp) S512x4 _ rfl rfl 12 rfl (ix2 r k)
      (fun b hb => by match b with
        | ⟨0, _⟩ => rfl
        | ⟨1, _⟩ => exact absurd rfl hb) rfl
  | ⟨4, _⟩ =>
    exact concatenate_apply_piece (t := S512x32) 1 _ _ _ 4 (by simp) S512x4 _ rfl rfl 16 rfl (ix2 r k)
      (fun b hb => by match b with
        | ⟨0, _⟩ => rfl
        | ⟨1, _⟩ => exact absurd rfl hb) rfl
  | ⟨5, _⟩ =>
    exact concatenate_apply_piece (t := S512x32) 1 _ _ _ 5 (by simp) S512x4 _ rfl rfl 20 rfl (ix2 r k)
      (fun b hb => by match b with
        | ⟨0, _⟩ => rfl
        | ⟨1, _⟩ => exact absurd rfl hb) rfl
  | ⟨6, _⟩ =>
    exact concatenate_apply_piece (t := S512x32) 1 _ _ _ 6 (by simp) S512x4 _ rfl rfl 24 rfl (ix2 r k)
      (fun b hb => by match b with
        | ⟨0, _⟩ => rfl
        | ⟨1, _⟩ => exact absurd rfl hb) rfl
  | ⟨7, _⟩ =>
    exact concatenate_apply_piece (t := S512x32) 1 _ _ _ 7 (by simp) S512x4 _ rfl rfl 28 rfl (ix2 r k)
      (fun b hb => by match b with
        | ⟨0, _⟩ => rfl
        | ⟨1, _⟩ => exact absurd rfl hb) rfl

/-- Any column `c` of the eight blocks side by side. -/
theorem cat8_apply' (v : Fin 8 → FVec Ideal S512x4 .f32) (r : Fin 512) (c : Fin 32) :
    cat8 v (ix2 r c) = v (colSeg c) (ix2 r (colMom c)) := by
  have hc : c = ⟨4 * (colSeg c).val + (colMom c).val, by have := c.isLt; show 4 * (c.val / 4) + c.val % 4 < 32; omega⟩ :=
    Fin.ext (by show c.val = 4 * (c.val / 4) + c.val % 4; omega)
  conv_lhs => rw [hc]
  exact cat8_apply v r (colSeg c) (colMom c)

end Cert.KernelIdeal.Block

end
-- ==== Proof.KernelBodyAt.lean ====
/-
  The kernel body's whole result at an index: `(r, o) ↦ ∑ k, M[r, k] · w[k, o] + b[o]` with `M` the one-sweep moments of
  row `r` of the eight segment blocks.

  The product from the zero accumulator, read at `(r, o)`, is the sum over the one contracted axis (the 32 moment
  columns) of the left block at `(r, k)` times the weight block at `(k, o)`; the bias block, reshaped to one row and
  broadcast down the 512 rows, contributes `b[o]`.
-/
import proofs.«141225_j52450140619338_2_alg».proof.Proof.KernelBlockAt

set_option maxRecDepth 16384

noncomputable section

namespace Cert.KernelIdeal.Block

open Cert.KernelIdeal Cert.KernelIdeal.Gen Idealize.ShloMosaic Idealize.ShloMosaic.ValueIdx Cert.Moments Cert.Spec

/-- The product's left operand index keeps the output's row. -/
theorem lhs_row (i : S512x32.Idx) (q : dot_S512x32_S32x32_S512x32_1_0_0_1_n_n.contr.Idx) : (dot_S512x32_S32x32_S512x32_1_0_0_1_n_n.lhsIdx i q 0).val = (i 0).val := by
  unfold DotDims.lhsIdx
  rw [dif_neg (show ¬(0 : Fin S512x32.rank) ∈ dot_S512x32_S32x32_S512x32_1_0_0_1_n_n.lhsBatch by decide),
    dif_pos (show (0 : Fin S512x32.rank) ∈ dot_S512x32_S32x32_S512x32_1_0_0_1_n_n.lhsNonContracting by decide)]
  rfl
/-- Its right operand index keeps the output's column. -/
theorem rhs_col (i : S512x32.Idx) (q : dot_S512x32_S32x32_S512x32_1_0_0_1_n_n.contr.Idx) : (dot_S512x32_S32x32_S512x32_1_0_0_1_n_n.rhsIdx i q 1).val = (i 1).val := by
  unfold DotDims.rhsIdx
  rw [dif_neg (show ¬(1 : Fin S32x32.rank) ∈ dot_S512x32_S32x32_S512x32_1_0_0_1_n_n.rhsBatch by decide),
    dif_pos (show (1 : Fin S32x32.rank) ∈ dot_S512x32_S32x32_S512x32_1_0_0_1_n_n.rhsNonContracting by decide)]
  rfl

/-- The product with the weight block at `(r, o)`. -/
theorem linF_apply (M : FVec Ideal S512x32 .f32) (w : Vec Ideal S32x32 .f32) (r : Fin 512) (o : Fin 32) :
    linF (F := Ideal) M w (ix2 r o) = ∑ k : Fin 32, M (ix2 r k) * w (ix2 k o) := by
  unfold linF
  rw [shapeCast_self]
  refine (Ideal.matmul_constant_zero_apply dot_S512x32_S32x32_S512x32_1_0_0_1_n_n none M w (ix2 r o)).trans ?_
  rw [← Equiv.sum_comp (ValueIdx.contrEquiv1 dot_S512x32_S32x32_S512x32_1_0_0_1_n_n 32 rfl rfl).symm]
  refine Finset.sum_congr rfl fun k _ => ?_
  have hk := ValueIdx.contrEquiv1_symm_val dot_S512x32_S32x32_S512x32_1_0_0_1_n_n 32 rfl rfl k
  have el : dot_S512x32_S32x32_S512x32_1_0_0_1_n_n.lhsIdx (ix2 r o)
      ((ValueIdx.contrEquiv1 dot_S512x32_S32x32_S512x32_1_0_0_1_n_n 32 rfl rfl).symm k) = ix2 r k :=
    funext fun a => Fin.ext (by
      match a with
      | ⟨0, _⟩ => exact lhs_row _ _
      | ⟨1, _⟩ => exact (dot_S512x32_S32x32_S512x32_1_0_0_1_n_n.lhsIdx_val_of_single rfl _ _).trans hk)
  have er : dot_S512x32_S32x32_S512x32_1_0_0_1_n_n.rhsIdx (ix2 r o)
      ((ValueIdx.contrEquiv1 dot_S512x32_S32x32_S512x32_1_0_0_1_n_n 32 rfl rfl).symm k) = ix2 k o :=
    funext fun a => Fin.ext (by
      match a with
      | ⟨0, _⟩ => exact (dot_S512x32_S32x32_S512x32_1_0_0_1_n_n.rhsIdx_val_of_single rfl _ _).trans hk
      | ⟨1, _⟩ => exact rhs_col _ _)
  rw [el, er]

/-- Adding the bias row at `(r, o)`. -/
theorem bias_apply (v : FVec Ideal S512x32 .f32) (b : Vec Ideal S32 .f32) (r : Fin 512) (o : Fin 32) :
    k0_pay1 (F := Ideal) v b (ix2 r o) = v (ix2 r o) + b (ix1 o) := by
  unfold k0_pay1
  show v (ix2 r o) + broadcastTo S512x32 (shapeCast S1x32 b shapeCasts_S32_S1x32) broadcasts_S1x32_S512x32 (ix2 r o) = _
  refine congrArg (v (ix2 r o) + ·) ?_
  refine (broadcastTo_apply _ broadcasts_S1x32_S512x32 (ix2 r o) (ix2 (0 : Fin 1) o) (fun a => by
    match a with
    | ⟨0, _⟩ => show (0 : Nat) = if (1 : Nat) = 1 then 0 else _; rw [if_pos rfl]
    | ⟨1, _⟩ => show o.val = if (32 : Nat) = 1 then 0 else o.val; rw [if_neg (by decide)])).trans ?_
  exact shapeCast_apply b shapeCasts_S32_S1x32 (ix2 (0 : Fin 1) o) (ix1 o) (by
    rw [Shape.rowMajor_val_one, Shape.rowMajor_val_two]
    show o.val = 0 * 32 + o.val
    omega)

/-- **The body's result at `(r, o)`.** -/
theorem bodyF_apply (L : Fin 8 → Vec Ideal S512x512 .f32) (w : Vec Ideal S32x32 .f32) (b : Vec Ideal S32 .f32)
    (r : Fin 512) (o : Fin 32) :
    bodyF (F := Ideal) L w b (ix2 r o)
      = (∑ k : Fin 32, momK (row (L (colSeg k)) r) (colMom k) * w (ix2 k o)) + b (ix1 o) := by
  unfold bodyF
  rw [bias_apply, linF_apply]
  refine congrArg (· + b (ix1 o)) (Finset.sum_congr rfl fun k _ => ?_)
  rw [cat8_apply', segF_apply]

end Cert.KernelIdeal.Block

end
-- ==== Proof.Whole.lean ====
/-
  The kernel's output array after the run is the linear layer over the one-sweep moment array of `x`.

  Grid point `t` (of 128) works on rows `512 t … 512 t + 511`: the input window's block is those rows of `x`, the
  weight window's block is the whole transposed weight array (the host transposes `W` before the launch), the bias
  window's block the whole bias, and the output window's block rows `512 t …` of the result. With the body's result at
  an index (Proof/KernelBodyAt.lean) the block point `t` writes back is block `t` of `Spec.lin (Spec.momentsK x) W b`;
  the 128 blocks cover the array (row `R` is in block `R / 512`), so the array after the run is that function.
-/
import proofs.«141225_j52450140619338_2_alg».proof.Proof.Gen.KernelIdeal.Value
import proofs.«141225_j52450140619338_2_alg».proof.Proof.KernelBodyAt
import Idealize.ShloMosaic.Lib.StableHlo.Run

set_option maxRecDepth 16384

noncomputable section

namespace Cert.KernelIdeal.Whole

open Cert.KernelIdeal Cert.KernelIdeal.Gen Cert.KernelIdeal.Block Idealize.ShloMosaic Idealize.ShloMosaic.ValueIdx
open Idealize.ShloMosaic.TcCoe Idealize.SL.Sem Cert.Moments Cert.Spec
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## One grid point, over variables -/

/-- If `x0` is rows `512 T …` of `X`, `x1` the transpose of `W` and `x2` is `B`, the body's result at `(r, o)` is the
    linear layer over the one-sweep moments of `X` at row `512 T + r`, column `o`. -/
theorem point_eq (X : SX.Idx → EReal) (W : SW.Idx → EReal) (B : SB.Idx → EReal) (T : Nat)
    (x0 : Vec Ideal S512x4096 .f32) (x1 : Vec Ideal S32x32 .f32) (x2 : Vec Ideal S32 .f32)
    (h0 : ∀ (y : S512x4096.Idx) (k : SX.Idx), (k 0).val = 512 * T + (y 0).val → (k 1).val = (y 1).val → x0 y = X k)
    (h1 : ∀ k o : Fin 32, x1 (ix2 k o) = W (ix2 o k))
    (h2 : ∀ o : Fin 32, x2 (ix1 o) = B (ix1 o))
    (r : Fin 512) (o : Fin 32) (i : SO.Idx) (hi0 : (i 0).val = 512 * T + r.val) (hi1 : (i 1).val = o.val) :
    bodyF (F := Ideal) (segBlocks x0) (View.ld x1 r0_8) (View.ld x2 r0_9) (ix2 r o) = lin (momentsK X) W B i := by
  rw [bodyF_apply, View.ld_unit_zero hz2, View.ld_unit_zero hz1]
  unfold lin
  obtain rfl : (⟨(i 1).val, (i 1).isLt⟩ : Fin 32) = o := Fin.ext hi1
  have e0 : ∀ s : Fin 8, row (segBlocks x0 s) r = Spec.segment X ⟨(i 0).val, (i 0).isLt⟩ s := fun s => by
    funext l
    unfold row Spec.segment
    match s with
    | ⟨0, _⟩ =>
      refine h0 _ (ix2 ⟨(i 0).val, (i 0).isLt⟩ ⟨0 * 512 + l.val, by have := l.isLt; omega⟩) ?_ ?_
      · show (i 0).val = 512 * T + (0 + 1 * r.val); omega
      · show 0 * 512 + l.val = 0 + 1 * l.val; omega
    | ⟨1, _⟩ =>
      refine h0 _ (ix2 ⟨(i 0).val, (i 0).isLt⟩ ⟨1 * 512 + l.val, by have := l.isLt; omega⟩) ?_ ?_
      · show (i 0).val = 512 * T + (0 + 1 * r.val); omega
      · show 1 * 512 + l.val = 512 + 1 * l.val; omega
    | ⟨2, _⟩ =>
      refine h0 _ (ix2 ⟨(i 0).val, (i 0).isLt⟩ ⟨2 * 512 + l.val, by have := l.isLt; omega⟩) ?_ ?_
      · show (i 0).val = 512 * T + (0 + 1 * r.val); omega
      · show 2 * 512 + l.val = 1024 + 1 * l.val; omega
    | ⟨3, _⟩ =>
      refine h0 _ (ix2 ⟨(i 0).val, (i 0).isLt⟩ ⟨3 * 512 + l.val, by have := l.isLt; omega⟩) ?_ ?_
      · show (i 0).val = 512 * T + (0 + 1 * r.val); omega
      · show 3 * 512 + l.val = 1536 + 1 * l.val; omega
    | ⟨4, _⟩ =>
      refine h0 _ (ix2 ⟨(i 0).val, (i 0).isLt⟩ ⟨4 * 512 + l.val, by have := l.isLt; omega⟩) ?_ ?_
      · show (i 0).val = 512 * T + (0 + 1 * r.val); omega
      · show 4 * 512 + l.val = 2048 + 1 * l.val; omega
    | ⟨5, _⟩ =>
      refine h0 _ (ix2 ⟨(i 0).val, (i 0).isLt⟩ ⟨5 * 512 + l.val, by have := l.isLt; omega⟩) ?_ ?_
      · show (i 0).val = 512 * T + (0 + 1 * r.val); omega
      · show 5 * 512 + l.val = 2560 + 1 * l.val; omega
    | ⟨6, _⟩ =>
      refine h0 _ (ix2 ⟨(i 0).val, (i 0).isLt⟩ ⟨6 * 512 + l.val, by have := l.isLt; omega⟩) ?_ ?_
      · show (i 0).val = 512 * T + (0 + 1 * r.val); omega
      · show 6 * 512 + l.val = 3072 + 1 * l.val; omega
    | ⟨7, _⟩ =>
      refine h0 _ (ix2 ⟨(i 0).val, (i 0).isLt⟩ ⟨7 * 512 + l.val, by have := l.isLt; omega⟩) ?_ ?_
      · show (i 0).val = 512 * T + (0 + 1 * r.val); omega
      · show 7 * 512 + l.val = 3584 + 1 * l.val; omega
  simp only [e0, h1, h2]
  rfl

/-! ## The windows' blocks at a grid point -/

variable (m : (ℓ : Loc nD τ sig) → Buf (Elt Ideal) ℓ) (ρ : Dev nD → PrngReg)

/-- The printed index maps over the grid: the input and output windows move down the rows with the point, the weight and
    bias windows stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The array the run leaves in the output: the linear layer over the one-sweep moment array of the first argument. -/
def result (c : Dev nD) : S65536x32.Idx → EReal :=
  lin (momentsK (m ((c : Thread nD τ).loc main_arg0) : SX.Idx → EReal))
    (m ((c : Thread nD τ).loc main_arg1) : SW.Idx → EReal) (m ((c : Thread nD τ).loc main_arg2) : SB.Idx → EReal)

/-- The input window's block at point `t` is rows `512 t …` of `x`. -/
theorem xblk_apply (c : Dev nD) (t : Fin cfg0.N) (y : S512x4096.Idx) (k : SX.Idx)
    (hk0 : (k 0).val = 512 * t.val + (y 0).val) (hk1 : (k 1).val = (y 1).val) :
    (iblk m c 0 t : Vec Ideal S512x4096 .f32) y = (m ((c : Thread nD τ).loc main_arg0) : SX.Idx → EReal) k := by
  obtain ⟨e00, e01, -⟩ := idx_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 2) * 512 + 1 * (y 0).val = (k 0).val; rw [e00, hk0]; omega
  | ⟨1, _⟩ => show win0_0.index t (1 : Fin 2) * 4096 + 1 * (y 1).val = (k 1).val; rw [e01, hk1]; omega

/-- The host transposes the weights before the launch. -/
theorem V_wt (c : Dev nD) : (V m c main_v0 : S32x32.Idx → EReal)
    = transpose S32x32 [1, 0] (m ((c : Thread nD τ).loc main_arg1) : S32x32.Idx → EReal) transposes_S32x32_S32x32_1_0 := by
  dsimp only [Gen.V, Gen.hostOps0]; after_results

/-- The weight window's block at any point is the transposed weight array. -/
theorem wblk_apply (c : Dev nD) (t : Fin cfg0.N) (k o : Fin 32) :
    (iblk m c 1 t : Vec Ideal S32x32 .f32) (ix2 k o) = (m ((c : Thread nD τ).loc main_arg1) : SW.Idx → EReal) (ix2 o k) := by
  obtain ⟨-, -, e10, e11, -⟩ := idx_facts t
  unfold iblk
  rw [View.read_apply]
  show (V m c main_v0 : S32x32.Idx → EReal) _ = _
  have he : ((cfg0.win 1).blk t).view.emb (ix2 k o) = (ix2 k o : S32x32.Idx) := funext fun a => Fin.ext (by
    match a with
    | ⟨0, _⟩ => show win0_1.index t (0 : Fin 2) * 32 + 1 * k.val = k.val; rw [e10]; omega
    | ⟨1, _⟩ => show win0_1.index t (1 : Fin 2) * 32 + 1 * o.val = o.val; rw [e11]; omega)
  refine (congrArg (V m c main_v0 : S32x32.Idx → EReal) he).trans ?_
  rw [V_wt]
  exact transpose_apply [1, 0] _ transposes_S32x32_S32x32_1_0 (ix2 k o) (ix2 o k) (fun b => match b with
    | ⟨0, _⟩ => rfl
    | ⟨1, _⟩ => rfl)

/-- The bias window's block at any point is the bias. -/
theorem bblk_apply (c : Dev nD) (t : Fin cfg0.N) (o : Fin 32) :
    (iblk m c 2 t : Vec Ideal S32 .f32) (ix1 o) = (m ((c : Thread nD τ).loc main_arg2) : SB.Idx → EReal) (ix1 o) := by
  obtain ⟨-, -, -, -, e20, -⟩ := idx_facts t
  unfold iblk
  rw [View.read_apply]
  show V m c main_arg2 _ = _
  refine (congrFun (V_main_arg2 m c) _).trans (congrArg _ (funext fun a => Fin.ext ?_))
  match a with
  | ⟨0, _⟩ => show win0_2.index t (0 : Fin 1) * 32 + 1 * o.val = o.val; rw [e20]; omega

/-! ## From blocks to the array -/

/-- What point `t` writes back is block `t` of `result`. -/
theorem flushed_eq (c : Dev nD) (t : Fin cfg0.N) :
    (dats m 0 c).flushed 3 t = ((cfg0.win 3).blk t).view.read (Elt Ideal) (result m c) := by
  rw [Value.flushed3, out0_3_eq, View.canon_unit_zero hz2]
  obtain ⟨-, -, -, -, -, e30, e31⟩ := idx_facts t
  funext j
  obtain ⟨r, o, rfl⟩ : ∃ (r : Fin 512) (o : Fin 32), j = ix2 r o := ⟨j 0, j 1, eq_ix2 j⟩
  show bodyF (F := Ideal) (segBlocks (iblk m c 0 t)) (View.ld (iblk m c 1 t) r0_8) (View.ld (iblk m c 2 t) r0_9) (ix2 r o)
    = result m c (((cfg0.win 3).blk t).view.emb (ix2 r o))
  refine point_eq _ _ _ t.val (iblk m c 0 t) (iblk m c 1 t) (iblk m c 2 t)
    (fun y k h0 h1 => xblk_apply m c t y k h0 h1) (fun k o => wblk_apply m c t k o) (fun o => bblk_apply m c t o)
    r o _ ?_ ?_
  · show win0_3.index t (0 : Fin 2) * 512 + 1 * r.val = 512 * t.val + r.val; rw [e30]; omega
  · show win0_3.index t (1 : Fin 2) * 32 + 1 * o.val = o.val; rw [e31]; omega

/-- An index of the array is in point `t`'s block iff each coordinate is in the block's range on its axis. -/
theorem mem_blk (t : Fin cfg0.N) (i : S65536x32.Idx) :
    i ∈ ((cfg0.win 3).blk t).view.set ↔ ∀ a : Fin 2, win0_3.index t a * S512x32.size a ≤ (i a).val
      ∧ (i a).val < win0_3.index t a * S512x32.size a + S512x32.size a := by
  show i ∈ ((View.whole main_v1).slice (win0_3.rect t)).set ↔ _
  rw [View.set_slice_whole, Rect.mem_set_unit]
  exact Iff.rfl

/-- Row `R` lies in the block of point `R / 512`: the 128 blocks cover the array. -/
theorem cover (i : S65536x32.Idx) :
    ∃ t : Fin cfg0.N, (cfg0.win 3).flush t = true ∧ i ∈ ((cfg0.win 3).blk t).view.set := by
  have h0 : (i 0).val < 65536 := (i 0).isLt
  have h1 : (i 1).val < 32 := (i 1).isLt
  have hN : cfg0.N = 128 := N_0
  have ht : (i 0).val / 512 < cfg0.N := by rw [hN]; omega
  obtain ⟨-, -, -, -, -, e30, e31⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, ht⟩ (1 : Fin 2) * 32 ≤ (i 1).val
      ∧ (i 1).val < win0_3.index ⟨(i 0).val / 512, ht⟩ (1 : Fin 2) * 32 + 32
    rw [e31]; omega

/-- The output array after the run. -/
theorem final (c : Dev nD) : (dats m 0 c).arrAt 3 cfg0.N = result m c :=
  (dats m 0 c).arrAt_eq_of_cover 3 (result m c) (fun t _ => flushed_eq m c t) cover

/-- **The kernel's run**: it terminates with the output array at `result` and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result is the linear layer over the two-sweep moment array.

  The reference reshapes `x` to [65536, 8, 512], takes each segment's mean, subtracts it, sums the second, third and
  fourth powers of the deviations, forms std, skew and kurt per segment ([65536, 8] arrays), lays the four side by side
  on a new last axis and reshapes to [65536, 32] — column `4 s + k` is moment `k` of segment `s` —, multiplies by the
  transposed weights and adds the bias. Stage by stage, each array is read as a function of `x` through the segments of
  Proof/Spec.lean and the two-sweep moments of Proof/Moments.lean; the last stage is `Spec.lin (Spec.momentsR x) W b`.
-/
import proofs.«141225_j52450140619338_2_alg».proof.Proof.Gen.ReferenceIdeal.Read
import proofs.«141225_j52450140619338_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.Moments Cert.Spec

variable (x : FVec Ideal S65536x4096 .f32)

/-- The segment an index of a [65536, 8] array stands for. -/
abbrev sg (i : S65536x8.Idx) : Fin 512 → EReal := segment x ⟨(i 0).val, (i 0).isLt⟩ ⟨(i 1).val, (i 1).isLt⟩
/-- The segment an index of a [65536, 8, 512] array lies in. -/
abbrev sg3 (i : S65536x8x512.Idx) : Fin 512 → EReal := segment x ⟨(i 0).val, (i 0).isLt⟩ ⟨(i 1).val, (i 1).isLt⟩

/-- The reshaped input: entry `(R, s, l)` is entry `l` of segment `s` of row `R`. -/
theorem reshaped : val_main_v0 (F := Ideal) x = fun i => sg3 x i ⟨(i 2).val, (i 2).isLt⟩ := by
  funext i
  rw [val_main_v0_apply]
  refine congrArg x (funext fun a => Fin.ext ?_)
  have h0 : (i 0).val < 65536 := (i 0).isLt
  have h1 : (i 1).val < 8 := (i 1).isLt
  have h2 : (i 2).val < 512 := (i 2).isLt
  match a with
  | ⟨0, _⟩ => show (((i 0).val * 8 + (i 1).val) * 512 + (i 2).val) / 4096 = (i 0).val; omega
  | ⟨1, _⟩ => show (((i 0).val * 8 + (i 1).val) * 512 + (i 2).val) % 4096 = (i 1).val * 512 + (i 2).val; omega

/-- The segment means. -/
theorem mean_eq : val_main_v3 (F := Ideal) x = fun i => meanR (sg x i) := by
  funext i
  rw [val_main_v3_apply, val_main_v1_apply, val_main_v2_apply, val_main_cst_0_apply, reshaped]
  rfl

/-- The deviations from the segment's mean. -/
theorem centred_eq : val_main_v6 (F := Ideal) x
    = fun i => sg3 x i ⟨(i 2).val, (i 2).isLt⟩ - meanR (sg3 x i) := by
  funext i
  rw [val_main_v6_apply, val_main_v5_apply, val_main_v4_apply, mean_eq, reshaped]
  rfl

theorem sq_eq : val_main_v7 (F := Ideal) x
    = fun i => (sg3 x i ⟨(i 2).val, (i 2).isLt⟩ - meanR (sg3 x i)) * (sg3 x i ⟨(i 2).val, (i 2).isLt⟩ - meanR (sg3 x i)) := by
  unfold val_main_v7; rw [centred_eq]; rfl

theorem cube_eq : val_main_v15 (F := Ideal) x
    = fun i => ((sg3 x i ⟨(i 2).val, (i 2).isLt⟩ - meanR (sg3 x i)) * (sg3 x i ⟨(i 2).val, (i 2).isLt⟩ - meanR (sg3 x i)))
        * (sg3 x i ⟨(i 2).val, (i 2).isLt⟩ - meanR (sg3 x i)) := by
  unfold val_main_v15 val_main_v14; rw [centred_eq]; rfl

theorem fourth_eq : val_main_v23 (F := Ideal) x
    = fun i => ((sg3 x i ⟨(i 2).val, (i 2).isLt⟩ - meanR (sg3 x i)) * (sg3 x i ⟨(i 2).val, (i 2).isLt⟩ - meanR (sg3 x i)))
        * ((sg3 x i ⟨(i 2).val, (i 2).isLt⟩ - meanR (sg3 x i)) * (sg3 x i ⟨(i 2).val, (i 2).isLt⟩ - meanR (sg3 x i))) := by
  unfold val_main_v23 val_main_v22; rw [centred_eq]; rfl

/-- The segment stds. -/
theorem std_eq : val_main_v13 (F := Ideal) x = fun i => stdR (sg x i) := by
  funext i
  rw [val_main_v13_apply, val_main_v11_apply, val_main_v10_apply, val_main_v8_apply, val_main_v9_apply,
    val_main_v12_apply, val_main_cst_2_apply, val_main_cst_3_apply, sq_eq]
  rfl

/-- The segment skews. -/
theorem skew_eq : val_main_v21 (F := Ideal) x = fun i => skewR (sg x i) := by
  funext i
  rw [val_main_v21_apply, val_main_v18_apply, val_main_v16_apply, val_main_v17_apply, val_main_cst_5_apply,
    val_main_v20_apply, val_main_v19_apply, std_eq, cube_eq]
  rfl

/-- The segment kurtoses. -/
theorem kurt_eq : val_main_v31 (F := Ideal) x = fun i => kurtR (sg x i) := by
  funext i
  rw [val_main_v31_apply, val_main_v29_apply, val_main_v26_apply, val_main_v24_apply, val_main_v25_apply,
    val_main_cst_7_apply, val_main_v28_apply, val_main_v27_apply, val_main_v30_apply, val_main_cst_8_apply, std_eq, fourth_eq]
  rfl

/-- Four [65536, 8, 1] arrays side by side on the last axis, at `(R, s, k)`: the `k`-th at `(R, s, 0)`. -/
theorem cat4_apply (f0 f1 f2 f3 : S65536x8x1.Idx → EReal) (R : Fin 65536) (s : Fin 8) (k : Fin 4) :
    concatenate S65536x8x4 2 [⟨S65536x8x1, f0⟩, ⟨S65536x8x1, f1⟩, ⟨S65536x8x1, f2⟩, ⟨S65536x8x1, f3⟩]
        concatenates_S65536x8x1_S65536x8x1_S65536x8x1_S65536x8x1_S65536x8x4_d2 (ix3 R s k)
      = (![f0, f1, f2, f3] : Fin 4 → S65536x8x1.Idx → EReal) k (ix3 R s 0) := by
  match k with
  | ⟨0, _⟩ =>
    exact concatenate_apply_piece (t := S65536x8x4) 2 _ _ _ 0 (by simp) S65536x8x1 _ rfl rfl 0 rfl (ix3 R s 0)
      (fun b hb => by match b with
        | ⟨0, _⟩ => rfl
        | ⟨1, _⟩ => rfl
        | ⟨2, _⟩ => exact absurd rfl hb) rfl
  | ⟨1, _⟩ =>
    exact concatenate_apply_piece (t := S65536x8x4) 2 _ _ _ 1 (by simp) S65536x8x1 _ rfl rfl 1 rfl (ix3 R s 0)
      (fun b hb => by match b with
        | ⟨0, _⟩ => rfl
        | ⟨1, _⟩ => rfl
        | ⟨2, _⟩ => exact absurd rfl hb) rfl
  | ⟨2, _⟩ =>
    exact concatenate_apply_piece (t := S65536x8x4) 2 _ _ _ 2 (by simp) S65536x8x1 _ rfl rfl 2 rfl (ix3 R s 0)
      (fun b hb => by match b with
        | ⟨0, _⟩ => rfl
        | ⟨1, _⟩ => rfl
        | ⟨2, _⟩ => exact absurd rfl hb) rfl
  | ⟨3, _⟩ =>
    exact concatenate_apply_piece (t := S65536x8x4) 2 _ _ _ 3 (by simp) S65536x8x1 _ rfl rfl 3 rfl (ix3 R s 0)
      (fun b hb => by match b with
        | ⟨0, _⟩ => rfl
        | ⟨1, _⟩ => rfl
        | ⟨2, _⟩ => exact absurd rfl hb) rfl

/-- Where the reshape to [65536, 32] reads the [65536, 8, 4] array: column `c` at segment `c / 4`, moment `c % 4`. -/
theorem idx37 (i : S65536x32.Idx) :
    idx_main_v37 i = ix3 (⟨(i 0).val, (i 0).isLt⟩ : Fin 65536) (colSeg ⟨(i 1).val, (i 1).isLt⟩) (colMom ⟨(i 1).val, (i 1).isLt⟩) := by
  funext a
  refine Fin.ext ?_
  have h0 : (i 0).val < 65536 := (i 0).isLt
  have h1 : (i 1).val < 32 := (i 1).isLt
  match a with
  | ⟨0, _⟩ => show ((i 0).val * 32 + (i 1).val) / 32 = (i 0).val; omega
  | ⟨1, _⟩ => show ((i 0).val * 32 + (i 1).val) / 4 % 8 = (i 1).val / 4; omega
  | ⟨2, _⟩ => show ((i 0).val * 32 + (i 1).val) % 4 = (i 1).val % 4; omega

/-- **The moment array**: the reshaped concatenation is the two-sweep moment array of `x`. -/
theorem moments_eq : val_main_v37 (F := Ideal) x
    = fun i => momentsR x ⟨(i 0).val, (i 0).isLt⟩ ⟨(i 1).val, (i 1).isLt⟩ := by
  funext i
  rw [val_main_v37_apply, idx37]
  unfold val_main_v36
  rw [cat4_apply]
  unfold momentsR
  generalize colSeg ⟨(i 1).val, (i 1).isLt⟩ = s
  generalize colMom ⟨(i 1).val, (i 1).isLt⟩ = k
  match k with
  | ⟨0, _⟩ =>
    show val_main_v32 (F := Ideal) x (ix3 ⟨(i 0).val, (i 0).isLt⟩ s 0) = meanR (segment x ⟨(i 0).val, (i 0).isLt⟩ s)
    rw [val_main_v32_apply, mean_eq]
  | ⟨1, _⟩ =>
    show val_main_v33 (F := Ideal) x (ix3 ⟨(i 0).val, (i 0).isLt⟩ s 0) = stdR (segment x ⟨(i 0).val, (i 0).isLt⟩ s)
    rw [val_main_v33_apply, std_eq]
  | ⟨2, _⟩ =>
    show val_main_v34 (F := Ideal) x (ix3 ⟨(i 0).val, (i 0).isLt⟩ s 0) = skewR (segment x ⟨(i 0).val, (i 0).isLt⟩ s)
    rw [val_main_v34_apply, skew_eq]
  | ⟨3, _⟩ =>
    show val_main_v35 (F := Ideal) x (ix3 ⟨(i 0).val, (i 0).isLt⟩ s 0) = kurtR (segment x ⟨(i 0).val, (i 0).isLt⟩ s)
    rw [val_main_v35_apply, kurt_eq]

/-- **The reference's result** is the linear layer over the two-sweep moment array. -/
theorem result_eq (W : FVec Ideal S32x32 .f32) (b : FVec Ideal S32 .f32) :
    val_main_v42 (F := Ideal) x W b = lin (momentsR x) W b := by
  funext i
  rw [val_main_v42_apply, val_main_v39_apply, val_main_v41_apply, val_main_v40_apply, moments_eq]
  simp only [val_main_v38_apply]
  have eW : ∀ k : Fin 32, idx_main_v38 (ridx_main_v39 i k) = ix2 (⟨(i 1).val, (i 1).isLt⟩ : Fin 32) k := fun k =>
    funext fun a => by match a with
      | ⟨0, _⟩ => rfl
      | ⟨1, _⟩ => rfl
  have eb : idx_main_v40 (idx_main_v41 i) = ix1 (⟨(i 1).val, (i 1).isLt⟩ : Fin 32) :=
    funext fun a => by match a with
      | ⟨0, _⟩ => rfl
  simp only [eW, eb]
  rfl

end Cert.ReferenceIdeal.RefValue

end
-- ==== Proof.Finite.lean ====
/-
  The precondition makes every entry of `x` a real number.

  `finite_inputs` says that `|x| < +∞` holds at every index of each argument (three `all`-reductions joined by `and`,
  the result 1). An extended real whose absolute value `max a (−a)` is below `+∞` is neither infinity, hence a real.
-/
import proofs.«141225_j52450140619338_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

instance : Subsingleton S_.Idx := ⟨fun a b => funext fun d => d.elim0⟩

/-- The word `0x7F800000` is `+∞`. -/
theorem lit_top : Ideal.ofBits .f32 0x7F800000#32 = (⊤ : EReal) := by
  simp [Ideal.ofBits, Ideal.ieee]

/-- An extended real whose absolute value compares below `+∞` is a real number. -/
theorem real_of_abs_lt (a : EReal)
    (h : Ideal.cmp .olt (max a (-a)) (Ideal.ofBits .f32 0x7F800000#32) = 1#1) : ∃ r : ℝ, a = (r : EReal) := by
  rw [lit_top] at h
  change BitVec.ofBool (decide (max a (-a) < ⊤)) = 1#1 at h
  have hlt : max a (-a) < ⊤ := by
    by_contra hn
    rw [decide_eq_false hn] at h
    exact absurd h (by decide)
  induction a using EReal.rec with
  | bot => simp at hlt
  | coe r => exact ⟨r, rfl⟩
  | top => simp at hlt

/-- Under `finite_inputs` every entry of the first argument is a real number. -/
theorem finite_x [Facts] (x : FVec Ideal S65536x4096 .f32) (W : FVec Ideal S32x32 .f32) (b : FVec Ideal S32 .f32)
    (h : fn (F := Ideal) x W b = fun _ => 1#1) (j : S65536x4096.Idx) : ∃ r : ℝ, x j = (r : EReal) := by
  have h0 := congrFun h ValueIdx.ix0
  dsimp only [fn] at h0
  obtain ⟨h1, -⟩ := IntOp.andi_eq_one.1 h0
  obtain ⟨hx, -⟩ := IntOp.andi_eq_one.1 h1
  have hj := Host.reduce_andi_all _ _ _ _ _ hx j
  exact real_of_abs_lt (x j) hj

end Cert.Finite

end
-- ==== Proof.lean ====
/-
  Segment moments followed by a 32 × 32 linear layer: the kernel against its reference, over the extended reals.

  `x : [65536, 4096]` is 65536 rows of 8 segments of 512 numbers. Both programs compute, per row and segment, the mean,
  `std = sqrt (var / 511) + ε`, `skew = (c₃ / 512) / std³` and `kurt = (c₄ / 512) / std⁴ − 3`, lay the 32 numbers of a row
  side by side, and return `moments · Wᵀ + b`. They differ in how the centred sums `var`, `c₃`, `c₄` are taken. The kernel
  makes ONE sweep over a segment, accumulating the raw power sums S₁ … S₄, and uses
    var = S₂ − 512 m²,  c₃ = S₃ − 3 m S₂ + 1024 m³,  c₄ = S₄ − 4 m S₃ + 6 m² S₂ − 1536 m⁴   with  m = S₁ · (1/512);
  the reference subtracts the mean `m = S₁ / 512` from every entry and sums the powers of the deviations. The two agree
  by the binomial expansion with `S₁ = 512 m` (Proof/LibPowerSums.lean, Proof/Moments.lean) — an identity of real
  numbers, whose distributivity fails at an infinite entry, so the precondition (every input finite, Proof/Finite.lean)
  is used for `x`. Dividing by 512 and multiplying by 1/512 agree on every extended real; every other literal is the same
  word on both sides. The kernel handles 512 rows per grid point; its output array after the run is the linear layer
  over the one-sweep moment array (Proof/KernelBlock.lean, KernelBlockAt.lean, KernelBodyAt.lean, Whole.lean), the
  reference's result the linear layer over the two-sweep moment array (Proof/RefValue.lean), both stated by one function
  `Spec.lin` (Proof/Spec.lean). The idealized kernel is the kernel's own text read at the ideal instance, so `preserves`
  has nothing to state.
-/
import proofs.«141225_j52450140619338_2_alg».proof.Defs
import proofs.«141225_j52450140619338_2_alg».proof.Proof.Gen.Kernel
import proofs.«141225_j52450140619338_2_alg».proof.Proof.Gen.Kernel.Skeleton
import proofs.«141225_j52450140619338_2_alg».proof.Proof.Gen.Kernel.Launch
import proofs.«141225_j52450140619338_2_alg».proof.Proof.Gen.Kernel.Points
import proofs.«141225_j52450140619338_2_alg».proof.Proof.Gen.Kernel.Frame
import proofs.«141225_j52450140619338_2_alg».proof.Proof.Gen.KernelIdeal
import proofs.«141225_j52450140619338_2_alg».proof.Proof.Gen.KernelIdeal.Skeleton
import proofs.«141225_j52450140619338_2_alg».proof.Proof.Gen.KernelIdeal.Launch
import proofs.«141225_j52450140619338_2_alg».proof.Proof.Gen.KernelIdeal.Points
import proofs.«141225_j52450140619338_2_alg».proof.Proof.Gen.KernelIdeal.Frame
import proofs.«141225_j52450140619338_2_alg».proof.Proof.Gen.ReferenceIdeal
import proofs.«141225_j52450140619338_2_alg».proof.Proof.Gen.Pre_finite_inputs
import proofs.«141225_j52450140619338_2_alg».proof.Proof.Gen.KernelIdeal.Value
import proofs.«141225_j52450140619338_2_alg».proof.Proof.Gen.ReferenceIdeal.Run
import proofs.«141225_j52450140619338_2_alg».proof.Proof.Gen.ReferenceIdeal.Read
import proofs.«141225_j52450140619338_2_alg».proof.Proof.Whole
import proofs.«141225_j52450140619338_2_alg».proof.Proof.RefValue
import proofs.«141225_j52450140619338_2_alg».proof.Proof.Finite
import Idealize.ShloMosaic.Adequacy
import Idealize.ShloMosaic.Init

noncomputable section

namespace Cert.Proof

open Idealize.ShloMosaic Idealize.SL.Sem

/-- The kernel as printed runs and leaves its arguments unchanged (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the linear layer over the moment array of `x`; the kernel's one-sweep moments and the reference's
    two-sweep moments are the same array because every entry of `x` is a real number. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.result_eq,
    (hagree c).1, (hagree c).2.1, (hagree c).2.2]
  show _ = Cert.KernelIdeal.Whole.result m c
  unfold Cert.KernelIdeal.Whole.result
  rw [Cert.Spec.momentsK_eq_momentsR (fun j => Cert.Finite.finite_x _ _ _ (hpre c) j)]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
